-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16x2048x2048 1) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x2048x64 : Shape := ⟨3, ![1, 2048, 64]⟩
abbrev S1x2048x2048 : Shape := ⟨3, ![1, 2048, 2048]⟩
abbrev S2048x64 : Shape := ⟨2, ![2048, 64]⟩
abbrev S2048x1 : Shape := ⟨2, ![2048, 1]⟩
abbrev S1x512x64 : Shape := ⟨3, ![1, 512, 64]⟩
abbrev S512x64 : Shape := ⟨2, ![512, 64]⟩
abbrev S1x2048x512 : Shape := ⟨3, ![1, 2048, 512]⟩
abbrev S2048x512 : Shape := ⟨2, ![2048, 512]⟩
abbrev S2048 : Shape := ⟨1, ![2048]⟩

abbrev nBuf : Space → Nat
  | .hbm => 6
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .i32⟩
  | .hbm, ⟨5, _⟩ => ⟨S16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x2048, .i32⟩
  | .local _ .vmem, ⟨7, _⟩ => ⟨S1x2048x2048, .i32⟩
  | .local _ .vmem, ⟨8, _⟩ => ⟨S1x2048x64, .f32⟩
  | .local _ .vmem, ⟨9, _⟩ => ⟨S1x2048x64, .f32⟩
  | .local _ .vmem, ⟨10, _⟩ => ⟨S2048x64, .f32⟩
  | .local _ .vmem, ⟨11, _⟩ => ⟨S2048x1, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v13 : BitVec 32 := Scalar.addi c0_i32 c4_i32
  let c1_i32 : BitVec 32 := 1#32
  ⟨c0_i32, v13, c1_i32⟩
def k0_mult1 (k0_t1 : Fin k0_t1_loop.trips) : BitVec 32 :=
  let c0_i32_17 : BitVec 32 := 0#32
  let c0_i32 : BitVec 32 := 0#32
  let c1_i32 : BitVec 32 := 1#32
  let arg8 : BitVec 32 := Scf.iv c0_i32 c1_i32 k0_t1
  let c1_i32_16 : BitVec 32 := 1#32
  let v21 : BitVec 32 := Scalar.muli arg8 c1_i32_16
  let v22 : BitVec 32 := Scalar.addi c0_i32_17 v21
  let c512_i32 : BitVec 32 := 512#32
  let v23 : BitVec 32 := Scalar.muli v22 c512_i32
  v23
def k0_off1 (k0_t1 : Fin k0_t1_loop.trips) : Fin 3 → Nat :=
  let c0_18 : Index := 0#32
  let c0_i32_17 : BitVec 32 := 0#32
  let c0_i32 : BitVec 32 := 0#32
  let c1_i32 : BitVec 32 := 1#32
  let arg8 : BitVec 32 := Scf.iv c0_i32 c1_i32 k0_t1
  let c1_i32_16 : BitVec 32 := 1#32
  let v21 : BitVec 32 := Scalar.muli arg8 c1_i32_16
  let v22 : BitVec 32 := Scalar.addi c0_i32_17 v21
  let c512_i32 : BitVec 32 := 512#32
  let v23 : BitVec 32 := Scalar.muli v22 c512_i32
  let v24 : BitVec 32 := v23
  let v25 : Index := Scalar.indexCast v24
  let c0_19 : Index := 0#32
  ![0, v25.toNat, 0]
def k0_off2 (k0_t1 : Fin k0_t1_loop.trips) : Fin 3 → Nat :=
  let c0_22 : Index := 0#32
  let c0_23 : Index := 0#32
  let c0_i32_17 : BitVec 32 := 0#32
  let c0_i32 : BitVec 32 := 0#32
  let c1_i32 : BitVec 32 := 1#32
  let arg8 : BitVec 32 := Scf.iv c0_i32 c1_i32 k0_t1
  let c1_i32_16 : BitVec 32 := 1#32
  let v21 : BitVec 32 := Scalar.muli arg8 c1_i32_16
  let v22 : BitVec 32 := Scalar.addi c0_i32_17 v21
  let c512_i32 : BitVec 32 := 512#32
  let v23 : BitVec 32 := Scalar.muli v22 c512_i32
  let v24 : BitVec 32 := v23
  let v33 : Index := Scalar.indexCast v24
  ![0, 0, v33.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  natLt_1_32 : 1 < 32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  h_S1x512x64 : 0 < S1x512x64.numel
  shapeCasts_S1x512x64_S512x64 : S1x512x64.ShapeCasts S512x64
  h_S1x2048x512 : 0 < S1x2048x512.numel
  shapeCasts_S1x2048x512_S2048x512 : S1x2048x512.ShapeCasts S2048x512
  reduces_S2048x512_S2048 : S2048x512.Reduces [1] S2048
  shapeCasts_S2048_S2048x1 : S2048.ShapeCasts S2048x1
  broadcasts_S2048x1_S2048x64 : S2048x1.Broadcasts S2048x64
  shapeCasts_S2048x64_S1x2048x64 : S2048x64.ShapeCasts S1x2048x64
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x64.size a ≤ S1x2048x64.size a
  k0_off2_inb : ∀ k0_t1 : Fin k0_t1_loop.trips, ∀ a, (k0_off2 k0_t1) a + S1x2048x512.size a ≤ S1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S16x2048x2048.size a
  hwx0_3 : ∀ i : grid0.Coords, EltTy.bits .i32 = 32 ∨ (Rect.block (s := S16x2048x2048) S1x2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S16x2048x64.size a
  hwx0_4 : ∀ i : grid0.Coords, EltTy.bits .f32 = 32 ∨ (Rect.block (s := S16x2048x64) S1x2048x64.size (cc0_transform_4 i) (hinb0_4 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  Masked attention with an unnormalised exponential, as one function of the argument arrays.

  For a batch `b`, a query row `r` and a key row `kk` the score is the dot product of the query row and
  the key row over the 64 features divided by 8 (the square root of the feature count), or 0 where the
  mask is set; its weight is the exponential of the score; and the result at feature `d` is the
  weighted sum of the value rows divided by the sum of the weights:

      out b r d = (∑ kk, exp (score b r kk) * v b kk d) / (∑ kk, exp (score b r kk)).

  The function is stated over real arrays: on finite inputs every intermediate value of either program is
  a real number, and the two programs differ only in where the division by 8 and the division by the sum
  of the weights are taken, and in the grouping of the sum over the key rows.
-/
import Idealize.ShloMosaic.PureOps.Ideal
import Idealize.ShloMosaic.Lib.ValueIdx

noncomputable section

namespace Cert.Attn

open Idealize.ShloMosaic Idealize.ShloMosaic.ValueIdx

/-- Queries, keys, values and the result: 16 batches of 2048 rows of 64 features. -/
abbrev SQ : Shape := ⟨3, ![16, 2048, 64]⟩
/-- The mask and the scores: per batch, query rows by key rows. -/
abbrev SM : Shape := ⟨3, ![16, 2048, 2048]⟩

/-- The score of key row `kk` for query row `r` of batch `b`: 0 where the mask is set, else the dot
    product over the features divided by 8. -/
def score (q k : SQ.Idx → ℝ) (msk : SM.Idx → BitVec 1) (b : Fin 16) (r kk : Fin 2048) : ℝ :=
  if msk (ix3 b r kk) = 1#1 then 0 else (∑ e : Fin 64, q (ix3 b r e) * k (ix3 b kk e)) / 8

/-- The weight of key row `kk`: the exponential of its score, a positive real. -/
def weight (q k : SQ.Idx → ℝ) (msk : SM.Idx → BitVec 1) (b : Fin 16) (r kk : Fin 2048) : ℝ :=
  Real.exp (score q k msk b r kk)

theorem weight_pos (q k : SQ.Idx → ℝ) (msk : SM.Idx → BitVec 1) (b : Fin 16) (r kk : Fin 2048) :
    0 < weight q k msk b r kk := Real.exp_pos _

/-- The sum of the weights of a query row: positive, so never zero. -/
def total (q k : SQ.Idx → ℝ) (msk : SM.Idx → BitVec 1) (b : Fin 16) (r : Fin 2048) : ℝ :=
  ∑ kk : Fin 2048, weight q k msk b r kk

theorem total_pos (q k : SQ.Idx → ℝ) (msk : SM.Idx → BitVec 1) (b : Fin 16) (r : Fin 2048) :
    0 < total q k msk b r :=
  Finset.sum_pos (fun kk _ => weight_pos q k msk b r kk) ⟨⟨0, by decide⟩, Finset.mem_univ _⟩

theorem total_ne_zero (q k : SQ.Idx → ℝ) (msk : SM.Idx → BitVec 1) (b : Fin 16) (r : Fin 2048) :
    total q k msk b r ≠ 0 := (total_pos q k msk b r).ne'

/-- The attention output over real arrays: the weighted sum of the value rows over the sum of the weights. -/
def attn (q k v : SQ.Idx → ℝ) (msk : SM.Idx → BitVec 1) (b : Fin 16) (r : Fin 2048) (d : Fin 64) : ℝ :=
  (∑ kk : Fin 2048, weight q k msk b r kk * v (ix3 b kk d)) / total q k msk b r

/-- The result array on the extended reals, from extended-real argument arrays read through their real
    parts (on finite arguments, the arguments themselves). -/
def G (q k v : SQ.Idx → EReal) (msk : SM.Idx → BitVec 1) : SQ.Idx → EReal := fun i =>
  ((attn (fun j => (q j).toReal) (fun j => (k j).toReal) (fun j => (v j).toReal) msk (i 0) (i 1) (i 2) : ℝ) : EReal)

/-- On arrays of reals the real parts are the arrays. -/
theorem G_coe (q k v : SQ.Idx → ℝ) (msk : SM.Idx → BitVec 1) (i : SQ.Idx) :
    G (fun j => (q j : EReal)) (fun j => (k j : EReal)) (fun j => (v j : EReal)) msk i
      = ((attn q k v msk (i 0) (i 1) (i 2) : ℝ) : EReal) := by
  simp only [G, EReal.toReal_coe]

/-- The single-precision word of one eighth. -/
theorem ofBits_eighth : Ideal.ofBits .f32 0x3E000000#32 = ((1 / 8 : ℝ) : EReal) := by
  simp [Ideal.ofBits, Ideal.ieee, -EReal.coe_mul]; norm_num

/-- The single-precision word of sixty-four. -/
theorem ofBits_64 : Ideal.ofBits .f32 0x42800000#32 = ((64 : ℝ) : EReal) := by
  simp [Ideal.ofBits, Ideal.ieee, -EReal.coe_mul]; norm_num

/-- The coercion of reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Attn

end
-- ==== Proof.RefValue.lean ====
import proofs.«146644_j6923487281202_2_alg».proof.Proof.Gen.ReferenceIdeal.Read
import proofs.«146644_j6923487281202_2_alg».proof.Proof.Spec

noncomputable section

namespace Cert.Attn.Ref

open Idealize.ShloMosaic Idealize.ShloMosaic.ValueIdx Cert.ReferenceIdeal Cert.ReferenceIdeal.Gen Cert.Attn

/-- The square root of sixty-four is eight. -/
private theorem sqrt_64 : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

/-! The index maps of the reference's contractions, sum and broadcasts, on an index given by its coordinates. -/

private theorem lidx0 (b : Fin 16) (r kk : Fin 2048) (e : Fin 64) :
    Read.lidx_main_v0 (ix3 b r kk) e = ix3 b r e :=
  funext fun a => Fin.ext (by match a with | ⟨0, _⟩ => rfl | ⟨1, _⟩ => rfl | ⟨2, _⟩ => rfl)

private theorem ridx0 (b : Fin 16) (r kk : Fin 2048) (e : Fin 64) :
    Read.ridx_main_v0 (ix3 b r kk) e = ix3 b kk e :=
  funext fun a => Fin.ext (by match a with | ⟨0, _⟩ => rfl | ⟨1, _⟩ => rfl | ⟨2, _⟩ => rfl)

private theorem idx678 (b : Fin 16) (r kk k' : Fin 2048) :
    Read.idx_main_v6 (Read.idx_main_v7 (Read.idx_main_v8 (ix3 b r kk))) k' = ix3 b r k' :=
  funext fun a => Fin.ext (by match a with | ⟨0, _⟩ => rfl | ⟨1, _⟩ => rfl | ⟨2, _⟩ => rfl)

private theorem lidx10 (b : Fin 16) (r : Fin 2048) (d : Fin 64) (kk : Fin 2048) :
    Read.lidx_main_v10 (ix3 b r d) kk = ix3 b r kk :=
  funext fun a => Fin.ext (by match a with | ⟨0, _⟩ => rfl | ⟨1, _⟩ => rfl | ⟨2, _⟩ => rfl)

private theorem ridx10 (b : Fin 16) (r : Fin 2048) (d : Fin 64) (kk : Fin 2048) :
    Read.ridx_main_v10 (ix3 b r d) kk = ix3 b kk d :=
  funext fun a => Fin.ext (by match a with | ⟨0, _⟩ => rfl | ⟨1, _⟩ => rfl | ⟨2, _⟩ => rfl)

/-- The exponentiated, masked, scaled score of the reference is the weight. -/
private theorem weight_at (q k : SQ.Idx → ℝ) (msk : SM.Idx → BitVec 1) (b : Fin 16) (r kk : Fin 2048) :
    Read.val_main_v5 (F := Ideal) (fun j => (q j : EReal)) (fun j => (k j : EReal)) msk (ix3 b r kk)
      = ((weight q k msk b r kk : ℝ) : EReal) := by
  rw [Read.val_main_v5_apply, Read.val_main_v4_apply, Read.val_main_call0_v0_apply, Read.val_main_cst_0_apply,
    Read.val_main_v3_apply, Read.val_main_v0_apply, Read.val_main_v2_apply, Read.val_main_v1_apply,
    Read.val_main_cst_apply]
  simp only [Ideal.hostUnary_exp_def, Ideal.hostUnary_sqrt_def, Ideal.hostDivf_def, Ideal.ofBits_def, ofBits_64,
    Ideal.ofBits_zero_f32, sqrt_64, lidx0, ridx0, ← EReal.coe_mul, ← coe_sum]
  rw [Ideal.div_coe (by norm_num : (8 : ℝ) ≠ 0), ← EReal.coe_mul]
  by_cases hm : msk (ix3 b r kk) = 1#1
  · rw [hm, select_one, ← EReal.coe_zero, Ideal.exp_coe, weight, score, if_pos hm]
  · rw [eq_zero_of_ne_one hm, select_zero, Ideal.exp_coe, weight, score, if_neg hm, mul_one_div]

/-- The reference's row sum of the weights, broadcast back over the key rows, is the total. -/
private theorem total_at (q k : SQ.Idx → ℝ) (msk : SM.Idx → BitVec 1) (b : Fin 16) (r kk : Fin 2048) :
    Read.val_main_v8 (F := Ideal) (fun j => (q j : EReal)) (fun j => (k j : EReal)) msk (ix3 b r kk)
      = ((total q k msk b r : ℝ) : EReal) := by
  rw [Read.val_main_v8_apply, Read.val_main_v7_apply, Read.val_main_v6_apply, Read.val_main_cst_1_apply]
  simp only [idx678, weight_at, Ideal.ofBits_def, Ideal.ofBits_zero_f32, zero_add, ← coe_sum]
  rfl

/-- The reference's normalised weight is the weight over the total. -/
private theorem normalised_at (q k : SQ.Idx → ℝ) (msk : SM.Idx → BitVec 1) (b : Fin 16) (r kk : Fin 2048) :
    Read.val_main_v9 (F := Ideal) (fun j => (q j : EReal)) (fun j => (k j : EReal)) msk (ix3 b r kk)
      = ((weight q k msk b r kk * (1 / total q k msk b r) : ℝ) : EReal) := by
  rw [Read.val_main_v9_apply, weight_at, total_at, Ideal.hostDivf_def, Ideal.div_coe (total_ne_zero q k msk b r),
    ← EReal.coe_mul]

/-- The reference's result at an index given by its coordinates: the sum over the key rows of the normalised
    weights times the value rows is the weighted sum over the total. -/
private theorem reference_at (q k v : SQ.Idx → ℝ) (msk : SM.Idx → BitVec 1) (b : Fin 16) (r : Fin 2048) (d : Fin 64) :
    Read.val_main_v10 (F := Ideal) (fun j => (q j : EReal)) (fun j => (k j : EReal)) (fun j => (v j : EReal)) msk (ix3 b r d)
      = ((attn q k v msk b r d : ℝ) : EReal) := by
  rw [Read.val_main_v10_apply]
  simp only [lidx10, ridx10, normalised_at, ← EReal.coe_mul, ← coe_sum]
  rw [attn, Finset.sum_div]
  refine congrArg _ (Finset.sum_congr rfl fun kk _ => ?_)
  ring

/-- The reference's result on real argument arrays is the attention output. -/
theorem reference_eq (q k v : SQ.Idx → ℝ) (msk : SM.Idx → BitVec 1) :
    Cert.ReferenceIdeal.Read.val_main_v10 (F := Ideal) (fun j => (q j : EReal)) (fun j => (k j : EReal)) (fun j => (v j : EReal)) msk
      = fun i => ((attn q k v msk (i 0) (i 1) (i 2) : ℝ) : EReal) := by
  funext i
  have hi : (i : SQ.Idx) = ix3 (i 0) (i 1) (i 2) := eq_ix3 i
  exact (congrArg _ hi).trans (reference_at q k v msk (i 0) (i 1) (i 2))

end Cert.Attn.Ref

end
-- ==== Proof.Finite.lean ====
import proofs.«146644_j6923487281202_2_alg».proof.Pre_finite_inputs
import Idealize.ShloMosaic.Lib.ReduceAll
import Idealize.ShloMosaic.Lib.ValueIdx
import Idealize.ShloMosaic.PureOps.Ideal
import Idealize.ShloMosaic.PureOps.Ideal.Laws

namespace Cert.Attn.Finite

open Idealize.ShloMosaic Cert.Pre_finite_inputs

/-- The shape with no axes has exactly one index. -/
instance : Subsingleton S_.Idx := ⟨fun _ _ => funext fun d => d.elim0⟩

/-- The single-precision word with all exponent bits set and no fraction bits is plus infinity. -/
theorem ofBits_inf : Ideal.ofBits .f32 0x7F800000#32 = (⊤ : EReal) := by
  simp [Ideal.ofBits, Ideal.ieee]

/-- An extended real whose absolute value `max x (-x)` lies strictly below plus infinity is neither
    infinity, hence the coercion of its real part. -/
theorem real_of_abs_lt (x : EReal)
    (h : Ideal.cmp .olt (max x (-x)) (Ideal.ofBits .f32 0x7F800000#32) = 1#1) :
    x = ((x.toReal : ℝ) : EReal) := by
  rw [ofBits_inf] at h
  induction x using EReal.rec with
  | bot => simp [Ideal.cmp] at h
  | top => simp [Ideal.cmp] at h
  | coe r => simp

/-- Under the precondition every entry of the three float arguments is a real number: the precondition is
    the conjunction, over the three arrays, of "every entry has absolute value below plus infinity". -/
theorem real_of_pre [Cert.Pre_finite_inputs.Facts] (x0 x1 x2 : FVec Ideal Cert.Pre_finite_inputs.S16x2048x64 .f32) (x3 : IVec Cert.Pre_finite_inputs.S16x2048x2048 1)
    (h : Cert.Pre_finite_inputs.fn (F := Ideal) x0 x1 x2 x3 = fun _ => 1#1) :
    (∀ j, (x0 j : EReal) = (((x0 j : EReal).toReal : ℝ) : EReal)) ∧ (∀ j, (x1 j : EReal) = (((x1 j : EReal).toReal : ℝ) : EReal)) ∧ (∀ j, (x2 j : EReal) = (((x2 j : EReal).toReal : ℝ) : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun j => ?_, fun j => ?_, fun j => ?_⟩
  · exact real_of_abs_lt _ (Host.reduce_andi_all _ _ _ _ _ h0' j)
  · exact real_of_abs_lt _ (Host.reduce_andi_all _ _ _ _ _ h1 j)
  · exact real_of_abs_lt _ (Host.reduce_andi_all _ _ _ _ _ h2 j)

end Cert.Attn.Finite
-- ==== Proof.Blocks.lean ====
/-
  The blocks of the five windows, read at an index.

  The grid has one point per batch: point `t` works on batch `t`, every window's block at that point is the
  whole slab `[t, :, :]` of its array, and the 16 slabs of the result tile it. So an entry (0, r, e) of the
  query, key or value block at point `t` is the argument array's entry (t, r, e); the mask block's entry
  (0, r, kk) is the mask array's bit (t, r, kk) widened to 32 bits (the one host operation before the kernel);
  and entry (0, r, d) of the output block lands at (t, r, d) of the result.
-/
import proofs.«146644_j6923487281202_2_alg».proof.Proof.Gen.KernelIdeal.Value
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The batch a grid point works on: the point's own number. -/
def batch (t : Fin cfg0.N) : Fin 16 := ⟨t.val, Nat.lt_of_lt_of_eq t.isLt N_0⟩

@[simp] theorem batch_val (t : Fin cfg0.N) : (batch t).val = t.val := rfl

/-- The printed index maps, decided over the 16 points: every window's block index at point `t` is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The query block at point `t` is batch `t` of the query array. -/
theorem qblk_apply (c : Dev nD) (t : Fin cfg0.N) (r : Fin 2048) (e : Fin 64) :
    (iblk m c 0 t : Vec F S1x2048x64 .f32) (ix3 (0 : Fin 1) r e)
      = m ((c : Thread nD τ).loc main_arg0) (ix3 (batch t) r e) := by
  have hV := V_main_arg0 m c
  show V m c main_arg0 (((cfg0.win 0).blk t).view.emb (ix3 (0 : Fin 1) r e)) = _
  rw [hV]
  refine congrArg _ (funext fun a => Fin.ext ?_)
  obtain ⟨⟨e0, e1, e2⟩, -⟩ := idx_facts t
  match a with
  | ⟨0, _⟩ => show win0_0.index t (0 : Fin 3) * 1 + 1 * 0 = t.val; omega
  | ⟨1, _⟩ => show win0_0.index t (1 : Fin 3) * 2048 + 1 * r.val = r.val; omega
  | ⟨2, _⟩ => show win0_0.index t (2 : Fin 3) * 64 + 1 * e.val = e.val; omega

/-- The key block at point `t` is batch `t` of the key array. -/
theorem kblk_apply (c : Dev nD) (t : Fin cfg0.N) (r : Fin 2048) (e : Fin 64) :
    (iblk m c 1 t : Vec F S1x2048x64 .f32) (ix3 (0 : Fin 1) r e)
      = m ((c : Thread nD τ).loc main_arg1) (ix3 (batch t) r e) := by
  have hV := V_main_arg1 m c
  show V m c main_arg1 (((cfg0.win 1).blk t).view.emb (ix3 (0 : Fin 1) r e)) = _
  rw [hV]
  refine congrArg _ (funext fun a => Fin.ext ?_)
  obtain ⟨-, ⟨e0, e1, e2⟩, -⟩ := idx_facts t
  match a with
  | ⟨0, _⟩ => show win0_1.index t (0 : Fin 3) * 1 + 1 * 0 = t.val; omega
  | ⟨1, _⟩ => show win0_1.index t (1 : Fin 3) * 2048 + 1 * r.val = r.val; omega
  | ⟨2, _⟩ => show win0_1.index t (2 : Fin 3) * 64 + 1 * e.val = e.val; omega

/-- The value block at point `t` is batch `t` of the value array. -/
theorem vblk_apply (c : Dev nD) (t : Fin cfg0.N) (r : Fin 2048) (e : Fin 64) :
    (iblk m c 2 t : Vec F S1x2048x64 .f32) (ix3 (0 : Fin 1) r e)
      = m ((c : Thread nD τ).loc main_arg2) (ix3 (batch t) r e) := by
  have hV := V_main_arg2 m c
  show V m c main_arg2 (((cfg0.win 2).blk t).view.emb (ix3 (0 : Fin 1) r e)) = _
  rw [hV]
  refine congrArg _ (funext fun a => Fin.ext ?_)
  obtain ⟨-, -, ⟨e0, e1, e2⟩, -⟩ := idx_facts t
  match a with
  | ⟨0, _⟩ => show win0_2.index t (0 : Fin 3) * 1 + 1 * 0 = t.val; omega
  | ⟨1, _⟩ => show win0_2.index t (1 : Fin 3) * 2048 + 1 * r.val = r.val; omega
  | ⟨2, _⟩ => show win0_2.index t (2 : Fin 3) * 64 + 1 * e.val = e.val; omega

/-- The array the mask window stages: the mask argument, each bit widened to a 32-bit word (the host operation
    before the kernel). -/
theorem V_mask (c : Dev nD) :
    (V m c main_v0 : S16x2048x2048.Idx → BitVec 32) = extui 32 (m ((c : Thread nD τ).loc main_arg3)) natLt_1_32 := by
  dsimp only [V, hostOps0]; after_results

/-- The mask block at point `t` is batch `t` of the mask, widened. -/
theorem mblk_apply (c : Dev nD) (t : Fin cfg0.N) (r kk : Fin 2048) :
    (iblk m c 3 t : Vec F S1x2048x2048 .i32) (ix3 (0 : Fin 1) r kk)
      = (m ((c : Thread nD τ).loc main_arg3) (ix3 (batch t) r kk)).setWidth 32 := by
  have hV := V_mask m c
  show V m c main_v0 (((cfg0.win 3).blk t).view.emb (ix3 (0 : Fin 1) r kk)) = _
  rw [hV, extui_apply]
  refine congrArg (fun j => (m ((c : Thread nD τ).loc main_arg3) j).setWidth 32) (funext fun a => Fin.ext ?_)
  obtain ⟨-, -, -, ⟨e0, e1, e2⟩, -⟩ := idx_facts t
  match a with
  | ⟨0, _⟩ => show win0_3.index t (0 : Fin 3) * 1 + 1 * 0 = t.val; omega
  | ⟨1, _⟩ => show win0_3.index t (1 : Fin 3) * 2048 + 1 * r.val = r.val; omega
  | ⟨2, _⟩ => show win0_3.index t (2 : Fin 3) * 2048 + 1 * kk.val = kk.val; omega

/-- Entry (0, r, d) of the output block at point `t` is entry (t, r, d) of the result array. -/
theorem oblk_emb (t : Fin cfg0.N) (r : Fin 2048) (d : Fin 64) :
    ((cfg0.win 4).blk t).view.emb (ix3 (0 : Fin 1) r d) = ix3 (batch t) r d := by
  refine funext fun a => Fin.ext ?_
  obtain ⟨-, -, -, -, ⟨e0, e1, e2⟩⟩ := idx_facts t
  match a with
  | ⟨0, _⟩ => show win0_4.index t (0 : Fin 3) * 1 + 1 * 0 = t.val; omega
  | ⟨1, _⟩ => show win0_4.index t (1 : Fin 3) * 2048 + 1 * r.val = r.val; omega
  | ⟨2, _⟩ => show win0_4.index t (2 : Fin 3) * 64 + 1 * d.val = d.val; omega

/-- An index of the result is in point `t`'s block iff each coordinate is in the block's range on its axis. -/
theorem mem_oblk (t : Fin cfg0.N) (i : S16x2048x64.Idx) :
    i ∈ ((cfg0.win 4).blk t).view.set ↔ ∀ a : Fin 3, win0_4.index t a * S1x2048x64.size a ≤ (i a).val
      ∧ (i a).val < win0_4.index t a * S1x2048x64.size a + S1x2048x64.size a := by
  show i ∈ ((View.whole main_v1).slice (win0_4.rect t)).set ↔ _
  rw [View.set_slice_whole, Rect.mem_set_unit]
  exact Iff.rfl

/-- The 16 slabs tile the result: index (b, r, d) is in the block of point `b`, which is written back. -/
theorem cover (i : S16x2048x64.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 64 := (i 2).isLt
  let t : Fin cfg0.N := ⟨(i 0).val, Nat.lt_of_lt_of_eq h0 N_0.symm⟩
  refine ⟨t, flush0_4 t, ?_⟩
  rw [mem_oblk]
  obtain ⟨-, -, -, -, ⟨e0, e1, e2⟩⟩ := idx_facts t
  have ht : t.val = (i 0).val := rfl
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 64 ≤ (i 2).val ∧ (i 2).val < win0_4.index t (2 : Fin 3) * 64 + 64; omega

end Cert.KernelIdeal.Blocks

end
-- ==== Proof.Body.lean ====
/-
  The kernel body at one grid point, read as values.

  The body zeroes two scratch arrays (an accumulator of 2048 rows by 64 features and a column of 2048 row sums),
  runs four trips over the key rows in chunks of 512, each trip replacing the accumulator and the row sums by a
  function of what it finds there and of the chunk's rows of the key, value and mask blocks, and finally stores
  the accumulator divided by the row sums. This module reads the run's recorded stores back: one trip's two
  stores, the scratch contents after any number of trips as a recursion over the trips, and the output block as
  the final quotient of the two scratch arrays after all trips.
-/
import proofs.«146644_j6923487281202_2_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.SL.Sem Idealize.ShloMosaic.Tactic

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The loop makes four trips. -/
theorem trips_eq : k0_t1_loop.trips = 4 := by decide

/-- Rows 512·k … 512·k+511 of a key or value block: what trip `k` loads of it. -/
abbrev rowsAt (x : Vec F S1x2048x64 .f32) (k : Fin k0_t1_loop.trips) : Vec F S1x512x64 .f32 :=
  View.ld x (Rect.unit (s := S1x2048x64) (k0_off1 k) S1x512x64.size (k0_off1_inb k))

/-- Columns 512·k … 512·k+511 of the mask block: what trip `k` loads of it. -/
abbrev colsAt (x : Vec F S1x2048x2048 .i32) (k : Fin k0_t1_loop.trips) : Vec F S1x2048x512 .i32 :=
  View.ld x (Rect.unit (s := S1x2048x2048) (k0_off2 k) S1x2048x512.size (k0_off2_inb k))

/-- ONE TRIP's store into the accumulator: the whole array, at the accumulator payload of the trip's loads and of
    what the trip finds in the accumulator. -/
theorem trip_acc (𝒱 : Variants) (c : Dev nD) (bd : Option 𝒱.V) (i : grid0.Coords) (arg1 : Memref sig .tc .vmem S1x2048x64 .f32) (harg1 : arg1.IsWhole) (arg2 : Memref sig .tc .vmem S1x2048x64 .f32) (harg2 : arg2.IsWhole) (arg3 : Memref sig .tc .vmem S1x2048x64 .f32) (harg3 : arg3.IsWhole) (arg4 : Memref sig .tc .vmem S1x2048x2048 .i32) (harg4 : arg4.IsWhole) (arg5 : Memref sig .tc .vmem S1x2048x64 .f32) (harg5 : arg5.IsWhole) (arg6 : Memref sig .tc .vmem S2048x64 .f32) (harg6 : arg6.IsWhole) (arg7 : Memref sig .tc .vmem S2048x1 .f32) (harg7 : arg7.IsWhole) (v8 : Vec F S1x2048x64 .f32) (X2 : BufTy.Contents (Elt F) arg2.view.ty) (X3 : BufTy.Contents (Elt F) arg3.view.ty) (X4 : BufTy.Contents (Elt F) arg4.view.ty) (k : Fin k0_t1_loop.trips) (f6 : BufTy.Contents (Elt F) arg6.view.ty) (f7 : BufTy.Contents (Elt F) arg7.view.ty) :
    (trip_k0_t1 (F := F) 𝒱 c bd i arg1 harg1 arg2 harg2 arg3 harg3 arg4 harg4 arg5 harg5 arg6 harg6 arg7 harg7 v8 X2 X3 X4 k).1 f6 f7
      = [⟨Rect.unit (s := S2048x64) ![0, 0] S2048x64.size inb_S2048x64_S2048x64_0_0,
          k0_pay5 v8
            (View.readAt (Elt F) arg2.view (Rect.unit (s := S1x2048x64) (k0_off1 k) S1x512x64.size (k0_off1_inb k)).toLoadRect X2)
            (View.readAt (Elt F) arg3.view (Rect.unit (s := S1x2048x64) (k0_off1 k) S1x512x64.size (k0_off1_inb k)).toLoadRect X3)
            (View.readAt (Elt F) arg4.view (Rect.unit (s := S1x2048x2048) (k0_off2 k) S1x2048x512.size (k0_off2_inb k)).toLoadRect X4)
            (View.readAt (Elt F) arg6.view (Rect.unit (s := S2048x64) ![0, 0] S2048x64.size inb_S2048x64_S2048x64_0_0).toLoadRect f6)⟩] := by
  unfold trip_k0_t1
  dsimp only

/-- ONE TRIP's store into the row sums: the whole column, at the row-sum payload of the trip's loads and of what
    the trip finds in the row sums. -/
theorem trip_sum (𝒱 : Variants) (c : Dev nD) (bd : Option 𝒱.V) (i : grid0.Coords) (arg1 : Memref sig .tc .vmem S1x2048x64 .f32) (harg1 : arg1.IsWhole) (arg2 : Memref sig .tc .vmem S1x2048x64 .f32) (harg2 : arg2.IsWhole) (arg3 : Memref sig .tc .vmem S1x2048x64 .f32) (harg3 : arg3.IsWhole) (arg4 : Memref sig .tc .vmem S1x2048x2048 .i32) (harg4 : arg4.IsWhole) (arg5 : Memref sig .tc .vmem S1x2048x64 .f32) (harg5 : arg5.IsWhole) (arg6 : Memref sig .tc .vmem S2048x64 .f32) (harg6 : arg6.IsWhole) (arg7 : Memref sig .tc .vmem S2048x1 .f32) (harg7 : arg7.IsWhole) (v8 : Vec F S1x2048x64 .f32) (X2 : BufTy.Contents (Elt F) arg2.view.ty) (X3 : BufTy.Contents (Elt F) arg3.view.ty) (X4 : BufTy.Contents (Elt F) arg4.view.ty) (k : Fin k0_t1_loop.trips) (f6 : BufTy.Contents (Elt F) arg6.view.ty) (f7 : BufTy.Contents (Elt F) arg7.view.ty) :
    (trip_k0_t1 (F := F) 𝒱 c bd i arg1 harg1 arg2 harg2 arg3 harg3 arg4 harg4 arg5 harg5 arg6 harg6 arg7 harg7 v8 X2 X3 X4 k).2.1 f6 f7
      = [⟨Rect.unit (s := S2048x1) ![0, 0] S2048x1.size inb_S2048x1_S2048x1_0_0,
          k0_pay4 v8
            (View.readAt (Elt F) arg2.view (Rect.unit (s := S1x2048x64) (k0_off1 k) S1x512x64.size (k0_off1_inb k)).toLoadRect X2)
            (View.readAt (Elt F) arg4.view (Rect.unit (s := S1x2048x2048) (k0_off2 k) S1x2048x512.size (k0_off2_inb k)).toLoadRect X4)
            (View.readAt (Elt F) arg7.view (Rect.unit (s := S2048x1) ![0, 0] S2048x1.size inb_S2048x1_S2048x1_0_0).toLoadRect f7)⟩] := by
  unfold trip_k0_t1
  dsimp only

/-- The two scratch arrays after `n` trips, from their contents `a0`, `s0` before the first: each trip maps the
    accumulator through the accumulator payload and the row sums through the row-sum payload, at the trip's chunk
    `K k`, `V k`, `M k` of the key, value and mask blocks; `v8` is the query block. -/
def scratchAfter (v8 : Vec F S1x2048x64 .f32) (K V : Fin k0_t1_loop.trips → Vec F S1x512x64 .f32)
    (M : Fin k0_t1_loop.trips → Vec F S1x2048x512 .i32) (a0 : Vec F S2048x64 .f32) (s0 : Vec F S2048x1 .f32) :
    ℕ → Vec F S2048x64 .f32 × Vec F S2048x1 .f32
  | 0 => (a0, s0)
  | n + 1 =>
    if h : n < k0_t1_loop.trips then
      (k0_pay5 v8 (K ⟨n, h⟩) (V ⟨n, h⟩) (M ⟨n, h⟩) (scratchAfter v8 K V M a0 s0 n).1,
       k0_pay4 v8 (K ⟨n, h⟩) (M ⟨n, h⟩) (scratchAfter v8 K V M a0 s0 n).2)
    else scratchAfter v8 K V M a0 s0 n

theorem scratchAfter_succ (v8 : Vec F S1x2048x64 .f32) (K V : Fin k0_t1_loop.trips → Vec F S1x512x64 .f32)
    (M : Fin k0_t1_loop.trips → Vec F S1x2048x512 .i32) (a0 : Vec F S2048x64 .f32) (s0 : Vec F S2048x1 .f32)
    (n : ℕ) (h : n < k0_t1_loop.trips) :
    scratchAfter v8 K V M a0 s0 (n + 1)
      = (k0_pay5 v8 (K ⟨n, h⟩) (V ⟨n, h⟩) (M ⟨n, h⟩) (scratchAfter v8 K V M a0 s0 n).1,
         k0_pay4 v8 (K ⟨n, h⟩) (M ⟨n, h⟩) (scratchAfter v8 K V M a0 s0 n).2) := by
  rw [scratchAfter]; exact dif_pos h

/-- What is read of a whole array after a store over the whole array (last of any stores): the store's payload. -/
theorem read_after_whole_store {sig' : RefSig} {κ : Kind} {sp : Space} {S : Shape} {e : EltTy} (v : View sig' κ sp S e)
    (f : v.ty.Contents (Elt F)) {off : Fin S.rank → Nat} (h0 : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h0 inb y⟩),
    View.canon_cons_unit_zero h0]

set_option maxHeartbeats 1000000 in
/-- THE LOOP, read: after the stores of the first `n` trips, written over the contents `G6`, `G7` the loop starts
    from, a load of either whole scratch array reads the recursion over the trips. By induction on `n`: a trip's
    one store covers its whole array, so what is read after it is its payload, at what was read before it. -/
theorem read_after_trips (𝒱 : Variants) (c : Dev nD) (bd : Option 𝒱.V) (i : grid0.Coords) (arg1 : Memref sig .tc .vmem S1x2048x64 .f32) (harg1 : arg1.IsWhole) (arg2 : Memref sig .tc .vmem S1x2048x64 .f32) (harg2 : arg2.IsWhole) (arg3 : Memref sig .tc .vmem S1x2048x64 .f32) (harg3 : arg3.IsWhole) (arg4 : Memref sig .tc .vmem S1x2048x2048 .i32) (harg4 : arg4.IsWhole) (arg5 : Memref sig .tc .vmem S1x2048x64 .f32) (harg5 : arg5.IsWhole) (arg6 : Memref sig .tc .vmem S2048x64 .f32) (harg6 : arg6.IsWhole) (arg7 : Memref sig .tc .vmem S2048x1 .f32) (harg7 : arg7.IsWhole) (v8 : Vec F S1x2048x64 .f32) (X2 : BufTy.Contents (Elt F) arg2.view.ty) (X3 : BufTy.Contents (Elt F) arg3.view.ty) (X4 : BufTy.Contents (Elt F) arg4.view.ty) (G6 : BufTy.Contents (Elt F) arg6.view.ty) (G7 : BufTy.Contents (Elt F) arg7.view.ty) :
    ∀ n : ℕ, n ≤ k0_t1_loop.trips →
      View.readAt (Elt F) arg6.view (Rect.unit (s := S2048x64) ![0, 0] S2048x64.size inb_S2048x64_S2048x64_0_0).toLoadRect (arg6.view.writes (Elt F) G6 (pb_k0_t1 (F := F) 𝒱 c bd i arg1 harg1 arg2 harg2 arg3 harg3 arg4 harg4 arg5 harg5 arg6 harg6 arg7 harg7 v8 X2 X3 X4 G6 G7 n).1)
          = (scratchAfter v8 (fun k => View.readAt (Elt F) arg2.view (Rect.unit (s := S1x2048x64) (k0_off1 k) S1x512x64.size (k0_off1_inb k)).toLoadRect X2) (fun k => View.readAt (Elt F) arg3.view (Rect.unit (s := S1x2048x64) (k0_off1 k) S1x512x64.size (k0_off1_inb k)).toLoadRect X3) (fun k => View.readAt (Elt F) arg4.view (Rect.unit (s := S1x2048x2048) (k0_off2 k) S1x2048x512.size (k0_off2_inb k)).toLoadRect X4)
              (View.readAt (Elt F) arg6.view (Rect.unit (s := S2048x64) ![0, 0] S2048x64.size inb_S2048x64_S2048x64_0_0).toLoadRect G6) (View.readAt (Elt F) arg7.view (Rect.unit (s := S2048x1) ![0, 0] S2048x1.size inb_S2048x1_S2048x1_0_0).toLoadRect G7) n).1
      ∧ View.readAt (Elt F) arg7.view (Rect.unit (s := S2048x1) ![0, 0] S2048x1.size inb_S2048x1_S2048x1_0_0).toLoadRect (arg7.view.writes (Elt F) G7 (pb_k0_t1 (F := F) 𝒱 c bd i arg1 harg1 arg2 harg2 arg3 harg3 arg4 harg4 arg5 harg5 arg6 harg6 arg7 harg7 v8 X2 X3 X4 G6 G7 n).2)
          = (scratchAfter v8 (fun k => View.readAt (Elt F) arg2.view (Rect.unit (s := S1x2048x64) (k0_off1 k) S1x512x64.size (k0_off1_inb k)).toLoadRect X2) (fun k => View.readAt (Elt F) arg3.view (Rect.unit (s := S1x2048x64) (k0_off1 k) S1x512x64.size (k0_off1_inb k)).toLoadRect X3) (fun k => View.readAt (Elt F) arg4.view (Rect.unit (s := S1x2048x2048) (k0_off2 k) S1x2048x512.size (k0_off2_inb k)).toLoadRect X4)
              (View.readAt (Elt F) arg6.view (Rect.unit (s := S2048x64) ![0, 0] S2048x64.size inb_S2048x64_S2048x64_0_0).toLoadRect G6) (View.readAt (Elt F) arg7.view (Rect.unit (s := S2048x1) ![0, 0] S2048x1.size inb_S2048x1_S2048x1_0_0).toLoadRect G7) n).2 := by
  intro n
  induction n with
  | zero => intro _; exact ⟨rfl, rfl⟩
  | succ n ih =>
    intro hn
    have h : n < k0_t1_loop.trips := hn
    obtain ⟨ih6, ih7⟩ := ih (Nat.le_of_lt h)
    have e := pb_k0_t1_succ (F := F) 𝒱 c bd i arg1 harg1 arg2 harg2 arg3 harg3 arg4 harg4 arg5 harg5 arg6 harg6 arg7 harg7 v8 X2 X3 X4 G6 G7 ⟨n, h⟩
    dsimp only at e
    rw [e, scratchAfter_succ _ _ _ _ _ _ n h]
    dsimp only [tripL_k0_t1]
    rw [trip_acc, trip_sum]
    constructor
    · rw [List.singleton_append]
      show View.ld (arg6.view.read (Elt F) _) _ = _
      rw [View.ld_unit_zero (S := S2048x64) zero2, read_after_whole_store (S := S2048x64) arg6.view _ zero2]
      exact congrArg (k0_pay5 v8 _ _ _) ih6
    · rw [List.singleton_append]
      show View.ld (arg7.view.read (Elt F) _) _ = _
      rw [View.ld_unit_zero (S := S2048x1) zero2, read_after_whole_store (S := S2048x1) arg7.view _ zero2]
      exact congrArg (k0_pay4 v8 _ _) ih7

set_option maxHeartbeats 1000000 in
/-- THE BODY, read: on input blocks `x0` (queries), `x1` (keys), `x2` (values), `x3` (mask) the output block is
    the final payload — the accumulator over the broadcast row sums — of the two scratch arrays after all trips,
    started from the two zero fills. -/
theorem out_eq (c : Dev nD) (i : grid0.Coords) (arg1 : Memref sig .tc .vmem S1x2048x64 .f32) (harg1 : arg1.IsWhole) (arg2 : Memref sig .tc .vmem S1x2048x64 .f32) (harg2 : arg2.IsWhole) (arg3 : Memref sig .tc .vmem S1x2048x64 .f32) (harg3 : arg3.IsWhole) (arg4 : Memref sig .tc .vmem S1x2048x2048 .i32) (harg4 : arg4.IsWhole) (arg5 : Memref sig .tc .vmem S1x2048x64 .f32) (harg5 : arg5.IsWhole) (arg6 : Memref sig .tc .vmem S2048x64 .f32) (harg6 : arg6.IsWhole) (arg7 : Memref sig .tc .vmem S2048x1 .f32) (harg7 : arg7.IsWhole)
    (x0 x1 x2 : Vec F S1x2048x64 .f32) (x3 : Vec F S1x2048x2048 .i32) :
    out0_A_4 c i arg1 harg1 arg2 harg2 arg3 harg3 arg4 harg4 arg5 harg5 arg6 harg6 arg7 harg7 x0 x1 x2 x3
      = k0_pay6
          (scratchAfter x0 (rowsAt x1) (rowsAt x2) (colsAt x3) (k0_pay1 (F := F)) (k0_pay2 (F := F)) k0_t1_loop.trips).1
          (scratchAfter x0 (rowsAt x1) (rowsAt x2) (colsAt x3) (k0_pay1 (F := F)) (k0_pay2 (F := F)) k0_t1_loop.trips).2 := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  sl_unfold_words
  rw [View.canon_unit_zero zero3]
  rw [View.writes_append, View.writes_append]
  obtain ⟨h6, h7⟩ := read_after_trips (F := F) Variants.none c none i arg1 harg1 arg2 harg2 arg3 harg3 arg4 harg4 arg5 harg5 arg6 harg6 arg7 harg7
    (View.readAt (Elt F) arg1.view (Rect.unit (s := S1x2048x64) ![0, 0, 0] S1x2048x64.size inb_S1x2048x64_S1x2048x64_0_0_0).toLoadRect (harg1.unread x0))
    (harg2.unread x1) (harg3.unread x2) (harg4.unread x3)
    (arg6.view.writes (Elt F) arg6.view.junk [⟨Rect.unit (s := S2048x64) ![0, 0] S2048x64.size inb_S2048x64_S2048x64_0_0, k0_pay1⟩])
    (arg7.view.writes (Elt F) arg7.view.junk [⟨Rect.unit (s := S2048x1) ![0, 0] S2048x1.size inb_S2048x1_S2048x1_0_0, k0_pay2⟩])
    (Scf.trips k0_t1_loop.lb k0_t1_loop.ub k0_t1_loop.st) (Nat.le_refl _)
  rw [h6, h7]
  show k0_pay6 (scratchAfter _ _ _ _ _ _ k0_t1_loop.trips).1 (scratchAfter _ _ _ _ _ _ k0_t1_loop.trips).2 = _
  simp only [View.readAt_eq_ld, harg1.read_unread, harg2.read_unread, harg3.read_unread, harg4.read_unread,
    View.read_writes_junk_eq_canon, View.canon_unit_zero (S := S2048x64) zero2, View.canon_unit_zero (S := S2048x1) zero2,
    View.ld_unit_zero (S := S2048x64) zero2, View.ld_unit_zero (S := S2048x1) zero2, View.ld_unit_zero (S := S1x2048x64) zero3]

end Cert.KernelIdeal.Body

end
-- ==== Proof.LibKeepdims.lean ====
/-
  Two layout operations of a sum taken with the reduced axis kept, read at an index.  A vector of length a viewed as
  a column [a, 1] holds, at (i, 0), the vector's entry i; a column [a, 1] broadcast along a new second axis to [a, b]
  holds, at (i, c), the column's entry (i, 0).  Together they say that a row-wise quantity, kept as a column and
  spread over a block, is read at (i, c) as the quantity of row i.
-/
import Idealize.ShloMosaic.Lib.Pipeline.Value
import Idealize.ShloMosaic.Lib.ValueIdx

namespace Idealize.ShloMosaic.ValueIdx

variable {α : Type}

/-- A vector [a] cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, c), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.PointValue.lean ====
/-
  One grid point's output block, as a value on real-valued input blocks.

  The body's arithmetic is read at an index, operation by operation: the two contractions are sums over the
  contracted axis, the lane sum is a sum over the key rows of a chunk, the layout operations move coordinates.
  A trip adds to the accumulator its chunk's exponentiated scores times the chunk's value rows, and to the row
  sums the chunk's exponentiated scores; on real-valued blocks an exponentiated score is the weight of its key
  row, so after n trips the two scratch arrays hold the partial sums over the first 512·n key rows (induction
  on n), after all four the full sums, and their quotient is the attention output.
-/
import proofs.«146644_j6923487281202_2_alg».proof.Proof.Body
import proofs.«146644_j6923487281202_2_alg».proof.Proof.Spec
import proofs.«146644_j6923487281202_2_alg».proof.Proof.LibKeepdims
import Idealize.ShloMosaic.PureOps.Ideal.Laws
import Idealize.ShloMosaic.Lib.ValueIdx
import Idealize.ShloMosaic.Lib.ValueLayout

noncomputable section

namespace Cert.KernelIdeal.PointValue

open Cert.KernelIdeal Cert.KernelIdeal.Gen Cert.KernelIdeal.Body Idealize.ShloMosaic Idealize.ShloMosaic.ValueIdx Cert.Attn

/-! ## The two contractions read at an index -/

theorem qk_lhs_0 (i : S2048x512.Idx) (q : dot_S2048x64_S512x64_S2048x512_1_1_0_0_n_n.contr.Idx) : (dot_S2048x64_S512x64_S2048x512_1_1_0_0_n_n.lhsIdx i q 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem qk_lhs_1 (i : S2048x512.Idx) (q : dot_S2048x64_S512x64_S2048x512_1_1_0_0_n_n.contr.Idx) : (dot_S2048x64_S512x64_S2048x512_1_1_0_0_n_n.lhsIdx i q 1).val = (q ⟨0, by decide⟩).val :=
  dot_S2048x64_S512x64_S2048x512_1_1_0_0_n_n.lhsIdx_val_of_single rfl i q
theorem qk_rhs_0 (i : S2048x512.Idx) (q : dot_S2048x64_S512x64_S2048x512_1_1_0_0_n_n.contr.Idx) : (dot_S2048x64_S512x64_S2048x512_1_1_0_0_n_n.rhsIdx i q 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem qk_rhs_1 (i : S2048x512.Idx) (q : dot_S2048x64_S512x64_S2048x512_1_1_0_0_n_n.contr.Idx) : (dot_S2048x64_S512x64_S2048x512_1_1_0_0_n_n.rhsIdx i q 1).val = (q ⟨0, by decide⟩).val :=
  dot_S2048x64_S512x64_S2048x512_1_1_0_0_n_n.rhsIdx_val_of_single rfl i q

/-- The scores' contraction: rows of the left operand against rows of the right, over the 64 features. -/
theorem matmul_qk_apply (A : FVec Ideal S2048x64 .bf16) (B : FVec Ideal S512x64 .bf16) (r : Fin 2048) (j : Fin 512) :
    FloatOps.matmul dot_S2048x64_S512x64_S2048x512_1_1_0_0_n_n none A B (constant (F := Ideal) S2048x512 .f32 0x00000000#32) (ix2 r j)
      = ∑ e : Fin 64, A (ix2 r e) * B (ix2 j e) := by
  rw [Ideal.matmul_constant_zero_apply, ← Equiv.sum_comp (contrEquiv1 dot_S2048x64_S512x64_S2048x512_1_1_0_0_n_n 64 rfl rfl).symm]
  refine Finset.sum_congr rfl fun e _ => ?_
  have hk := contrEquiv1_symm_val dot_S2048x64_S512x64_S2048x512_1_1_0_0_n_n 64 rfl rfl e
  have el : dot_S2048x64_S512x64_S2048x512_1_1_0_0_n_n.lhsIdx (ix2 r j) ((contrEquiv1 dot_S2048x64_S512x64_S2048x512_1_1_0_0_n_n 64 rfl rfl).symm e) = ix2 r e :=
    funext fun a => Fin.ext (by
      match a with
      | ⟨0, _⟩ => exact qk_lhs_0 _ _
      | ⟨1, _⟩ => exact (qk_lhs_1 _ _).trans hk)
  have er : dot_S2048x64_S512x64_S2048x512_1_1_0_0_n_n.rhsIdx (ix2 r j) ((contrEquiv1 dot_S2048x64_S512x64_S2048x512_1_1_0_0_n_n 64 rfl rfl).symm e) = ix2 j e :=
    funext fun a => Fin.ext (by
      match a with
      | ⟨0, _⟩ => exact qk_rhs_0 _ _
      | ⟨1, _⟩ => exact (qk_rhs_1 _ _).trans hk)
  rw [el, er]

theorem ev_lhs_0 (i : S2048x64.Idx) (q : dot_S2048x512_S512x64_S2048x64_1_0_0_1_n_n.contr.Idx) : (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem ev_lhs_1 (i : S2048x64.Idx) (q : dot_S2048x512_S512x64_S2048x64_1_0_0_1_n_n.contr.Idx) : (dot_S2048x512_S512x64_S2048x64_1_0_0_1_n_n.lhsIdx i q 1).val = (q ⟨0, by decide⟩).val :=
  dot_S2048x512_S512x64_S2048x64_1_0_0_1_n_n.lhsIdx_val_of_single rfl i q
theorem ev_rhs_0 (i : S2048x64.Idx) (q : dot_S2048x512_S512x64_S2048x64_1_0_0_1_n_n.contr.Idx) : (dot_S2048x512_S512x64_S2048x64_1_0_0_1_n_n.rhsIdx i q 0).val = (q ⟨0, by decide⟩).val :=
  dot_S2048x512_S512x64_S2048x64_1_0_0_1_n_n.rhsIdx_val_of_single rfl i q
theorem ev_rhs_1 (i : S2048x64.Idx) (q : dot_S2048x512_S512x64_S2048x64_1_0_0_1_n_n.contr.Idx) : (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- The output's contraction: rows of the left operand against columns of the right, over the 512 key rows of a chunk. -/
theorem matmul_ev_apply (A : FVec Ideal S2048x512 .bf16) (B : FVec Ideal S512x64 .bf16) (r : Fin 2048) (d : Fin 64) :
    FloatOps.matmul dot_S2048x512_S512x64_S2048x64_1_0_0_1_n_n none A B (constant (F := Ideal) S2048x64 .f32 0x00000000#32) (ix2 r d)
      = ∑ j : Fin 512, A (ix2 r j) * B (ix2 j d) := by
  rw [Ideal.matmul_constant_zero_apply, ← Equiv.sum_comp (contrEquiv1 dot_S2048x512_S512x64_S2048x64_1_0_0_1_n_n 512 rfl rfl).symm]
  refine Finset.sum_congr rfl fun e _ => ?_
  have hk := contrEquiv1_symm_val dot_S2048x512_S512x64_S2048x64_1_0_0_1_n_n 512 rfl rfl e
  have el : dot_S2048x512_S512x64_S2048x64_1_0_0_1_n_n.lhsIdx (ix2 r d) ((contrEquiv1 dot_S2048x512_S512x64_S2048x64_1_0_0_1_n_n 512 rfl rfl).symm e) = ix2 r e :=
    funext fun a => Fin.ext (by
      match a with
      | ⟨0, _⟩ => exact ev_lhs_0 _ _
      | ⟨1, _⟩ => exact (ev_lhs_1 _ _).trans hk)
  have er : dot_S2048x512_S512x64_S2048x64_1_0_0_1_n_n.rhsIdx (ix2 r d) ((contrEquiv1 dot_S2048x512_S512x64_S2048x64_1_0_0_1_n_n 512 rfl rfl).symm e) = ix2 e d :=
    funext fun a => Fin.ext (by
      match a with
      | ⟨0, _⟩ => exact (ev_rhs_0 _ _).trans hk
      | ⟨1, _⟩ => exact ev_rhs_1 _ _)
  rw [el, er]

/-! ## The payloads read at an index -/

/-- The two zero fills. -/
theorem pay1_apply (r : Fin 2048) (d : Fin 64) : k0_pay1 (F := Ideal) (ix2 r d) = 0 := by
  unfold k0_pay1
  rw [shapeCast_self]
  exact Ideal.ofBits_zero_f32

theorem pay2_apply (r : Fin 2048) : k0_pay2 (F := Ideal) (ix2 r (0 : Fin 1)) = 0 := by
  unfold k0_pay2
  rw [shapeCast_self]
  exact Ideal.ofBits_zero_f32

/-- A chunk's exponentiated scores at a query row and a key row of the chunk: the exponential of 0 where the
    mask word is not zero, else of the dot product of the query row scaled by one eighth with the key row. -/
theorem pay3_apply (x0 : Vec Ideal S1x2048x64 .f32) (K : Vec Ideal S1x512x64 .f32) (M : Vec Ideal S1x2048x512 .i32)
    (r : Fin 2048) (j : Fin 512) :
    k0_pay3 (F := Ideal) x0 K M (ix2 r j)
      = Ideal.exp (Scalar.select (IntOp.cmpi .ne (M (ix3 (0 : Fin 1) r j)) 0#32) (0 : EReal)
          (∑ e : Fin 64, (x0 (ix3 (0 : Fin 1) r e) * Ideal.ofBits .f32 0x3E000000#32) * K (ix3 (0 : Fin 1) j e))) := by
  unfold k0_pay3
  show Ideal.exp (Scalar.select (IntOp.cmpi .ne (shapeCast S2048x512 M shapeCasts_S1x2048x512_S2048x512 (ix2 r j)) 0#32)
      (Ideal.ofBits .f32 0x00000000#32)
      (FloatOps.matmul dot_S2048x64_S512x64_S2048x512_1_1_0_0_n_n none _ _ (constant (F := Ideal) S2048x512 .f32 0x00000000#32) (ix2 r j))) = _
  rw [matmul_qk_apply, shapeCast_1ab_ab_apply, Ideal.ofBits_zero_f32]
  refine congrArg (fun z => Ideal.exp (Scalar.select _ 0 z)) (Finset.sum_congr rfl fun e _ => ?_)
  show (shapeCast S2048x64 x0 shapeCasts_S1x2048x64_S2048x64 (ix2 r e) * Ideal.ofBits .f32 0x3E000000#32)
      * shapeCast S512x64 K shapeCasts_S1x512x64_S512x64 (ix2 j e) = _
  rw [shapeCast_1ab_ab_apply, shapeCast_1ab_ab_apply]

/-- One trip's row sums: what was there plus the chunk's exponentiated scores summed over the chunk. -/
theorem pay4_apply (x0 : Vec Ideal S1x2048x64 .f32) (K : Vec Ideal S1x512x64 .f32) (M : Vec Ideal S1x2048x512 .i32)
    (s : Vec Ideal S2048x1 .f32) (r : Fin 2048) :
    k0_pay4 (F := Ideal) x0 K M s (ix2 r (0 : Fin 1))
      = s (ix2 r (0 : Fin 1)) + ∑ j : Fin 512, k0_pay3 (F := Ideal) x0 K M (ix2 r j) := by
  unfold k0_pay4
  rw [shapeCast_self]
  show s (ix2 r (0 : Fin 1)) + shapeCast S2048x1 (multiReduction (F := Ideal) .add [1] S2048 (k0_pay3 (F := Ideal) x0 K M) 0x00000000#32 reduces_S2048x512_S2048 (.inl rfl) rfl) shapeCasts_S2048_S2048x1 (ix2 r (0 : Fin 1)) = _
  rw [shapeCast_a_a1_apply]
  refine congrArg (s (ix2 r (0 : Fin 1)) + ·) ?_
  refine (Ideal.multiReduction_add_single (k0_pay3 (F := Ideal) x0 K M) 0x00000000#32 reduces_S2048x512_S2048 (.inl rfl) rfl (ix1 r)).trans ?_
  refine Finset.sum_congr rfl fun j _ => congrArg _ (funext fun a => ?_)
  match a with
  | ⟨0, _⟩ => rfl
  | ⟨1, _⟩ => rfl

/-- One trip's accumulator: what was there plus the chunk's exponentiated scores times the chunk's value rows. -/
theorem pay5_apply (x0 : Vec Ideal S1x2048x64 .f32) (K V : Vec Ideal S1x512x64 .f32) (M : Vec Ideal S1x2048x512 .i32)
    (acc : Vec Ideal S2048x64 .f32) (r : Fin 2048) (d : Fin 64) :
    k0_pay5 (F := Ideal) x0 K V M acc (ix2 r d)
      = acc (ix2 r d) + ∑ j : Fin 512, k0_pay3 (F := Ideal) x0 K M (ix2 r j) * V (ix3 (0 : Fin 1) j d) := by
  unfold k0_pay5
  rw [shapeCast_self]
  show acc (ix2 r d) + FloatOps.matmul dot_S2048x512_S512x64_S2048x64_1_0_0_1_n_n none _ _ (constant (F := Ideal) S2048x64 .f32 0x00000000#32) (ix2 r d) = _
  rw [matmul_ev_apply]
  refine congrArg (acc (ix2 r d) + ·) (Finset.sum_congr rfl fun j _ => ?_)
  show k0_pay3 (F := Ideal) x0 K M (ix2 r j) * shapeCast S512x64 V shapeCasts_S1x512x64_S512x64 (ix2 j d) = _
  rw [shapeCast_1ab_ab_apply]

/-- The stored block: the accumulator over the row sum of its row. -/
theorem pay6_apply (acc : Vec Ideal S2048x64 .f32) (s : Vec Ideal S2048x1 .f32) (r : Fin 2048) (d : Fin 64) :
    k0_pay6 (F := Ideal) acc s (ix3 (0 : Fin 1) r d) = Ideal.div (acc (ix2 r d)) (s (ix2 r (0 : Fin 1))) := by
  unfold k0_pay6
  rw [shapeCast_ab_1ab_apply]
  show Ideal.div (acc (ix2 r d)) (broadcastTo S2048x64 s broadcasts_S2048x1_S2048x64 (ix2 r d)) = _
  rw [broadcastTo_a1_ab_apply]

/-! ## A trip's chunk of the key, value and mask blocks -/

/-- Key row `512·t + j` of the block: row `j` of trip `t`'s chunk. -/
def chunkRow (t : Fin k0_t1_loop.trips) (j : Fin 512) : Fin 2048 :=
  ⟨512 * t.val + j.val, by have : t.val < 4 := lt_of_lt_of_eq t.isLt trips_eq; omega⟩

/-- Trip `t`'s rows of a key or value block, read at an index. -/
theorem rowsAt_apply (x : Vec Ideal S1x2048x64 .f32) (t : Fin k0_t1_loop.trips) (j : Fin 512) (e : Fin 64) :
    rowsAt x t (ix3 (0 : Fin 1) j e) = x (ix3 (0 : Fin 1) (chunkRow t j) e) := by
  refine congrArg x (funext fun a => Fin.ext ?_)
  show k0_off1 t a + 1 * ((ix3 (0 : Fin 1) j e : S1x512x64.Idx) a).val = _
  rw [k0_off1_eq, Nat.one_mul]
  match a with
  | ⟨0, _⟩ => rfl
  | ⟨1, _⟩ => rfl
  | ⟨2, _⟩ => exact Nat.zero_add _

/-- Trip `t`'s columns of the mask block, read at an index. -/
theorem colsAt_apply (x : Vec Ideal S1x2048x2048 .i32) (t : Fin k0_t1_loop.trips) (r : Fin 2048) (j : Fin 512) :
    colsAt x t (ix3 (0 : Fin 1) r j) = x (ix3 (0 : Fin 1) r (chunkRow t j)) := by
  refine congrArg x (funext fun a => Fin.ext ?_)
  show k0_off2 t a + 1 * ((ix3 (0 : Fin 1) r j : S1x2048x512.Idx) a).val = _
  rw [k0_off2_eq, Nat.one_mul]
  match a with
  | ⟨0, _⟩ => rfl
  | ⟨1, _⟩ => exact Nat.zero_add _
  | ⟨2, _⟩ => rfl

/-! ## On real-valued blocks -/

/-- A one-bit word widened to 32 bits differs from zero exactly when it is one. -/
theorem cmpi_ne_setWidth (m : BitVec 1) : IntOp.cmpi .ne (m.setWidth 32) 0#32 = m := by
  rcases BitVec.eq_zero_or_eq_one m with h | h <;> subst h <;> rfl

section Real

variable (q k v : SQ.Idx → ℝ) (msk : SM.Idx → BitVec 1) (b : Fin 16)
  (x0 x1 x2 : Vec Ideal S1x2048x64 .f32) (x3 : Vec Ideal S1x2048x2048 .i32)
  (h0 : ∀ (r : Fin 2048) (e : Fin 64), x0 (ix3 (0 : Fin 1) r e) = ((q (ix3 b r e) : ℝ) : EReal))
  (h1 : ∀ (r : Fin 2048) (e : Fin 64), x1 (ix3 (0 : Fin 1) r e) = ((k (ix3 b r e) : ℝ) : EReal))
  (h2 : ∀ (r : Fin 2048) (e : Fin 64), x2 (ix3 (0 : Fin 1) r e) = ((v (ix3 b r e) : ℝ) : EReal))
  (h3 : ∀ (r kk : Fin 2048), x3 (ix3 (0 : Fin 1) r kk) = (msk (ix3 b r kk)).setWidth 32)

include h0 h1 in
/-- On real blocks the scaled dot product of a query row with a key row of a chunk is the real dot product over 8. -/
theorem dot_real (t : Fin k0_t1_loop.trips) (r : Fin 2048) (j : Fin 512) :
    (∑ e : Fin 64, (x0 (ix3 (0 : Fin 1) r e) * (((1 / 8 : ℝ) : ℝ) : EReal)) * rowsAt x1 t (ix3 (0 : Fin 1) j e))
      = (((∑ e : Fin 64, q (ix3 b r e) * k (ix3 b (chunkRow t j) e)) / 8 : ℝ) : EReal) := by
  rw [Finset.sum_div, coe_sum]
  refine Finset.sum_congr rfl fun e _ => ?_
  rw [h0, rowsAt_apply, h1, ← EReal.coe_mul, ← EReal.coe_mul]
  refine congrArg (fun z : ℝ => (z : EReal)) ?_
  ring

include h0 h1 h3 in
/-- On real blocks a chunk's exponentiated score is the weight of the chunk's key row. -/
theorem pay3_real (t : Fin k0_t1_loop.trips) (r : Fin 2048) (j : Fin 512) :
    k0_pay3 (F := Ideal) x0 (rowsAt x1 t) (colsAt x3 t) (ix2 r j) = ((weight q k msk b r (chunkRow t j) : ℝ) : EReal) := by
  rw [pay3_apply, colsAt_apply, h3, cmpi_ne_setWidth, ofBits_eighth, dot_real q k b x0 x1 h0 h1]
  by_cases hm : msk (ix3 b r (chunkRow t j)) = 1#1
  · rw [hm, select_one, ← EReal.coe_zero, Ideal.exp_coe, weight, score, if_pos hm]
  · rw [eq_zero_of_ne_one hm, select_zero, Ideal.exp_coe, weight, score, if_neg hm]

/-- The weights of a query row's key rows as a sequence over the natural numbers (zero from 2048 on). -/
def wSeq (r : Fin 2048) (n : ℕ) : ℝ := if h : n < 2048 then weight q k msk b r ⟨n, h⟩ else 0

/-- The weights times a column of the value rows, likewise. -/
def wvSeq (r : Fin 2048) (d : Fin 64) (n : ℕ) : ℝ :=
  if h : n < 2048 then weight q k msk b r ⟨n, h⟩ * v (ix3 b ⟨n, h⟩ d) else 0

theorem sum_wSeq (r : Fin 2048) : ∑ i ∈ Finset.range 2048, wSeq q k msk b r i = total q k msk b r := by
  rw [Finset.sum_range, total]
  exact Finset.sum_congr rfl fun kk _ => dif_pos kk.isLt

theorem sum_wvSeq (r : Fin 2048) (d : Fin 64) :
    ∑ i ∈ Finset.range 2048, wvSeq q k v msk b r d i = ∑ kk : Fin 2048, weight q k msk b r kk * v (ix3 b kk d) := by
  rw [Finset.sum_range]
  exact Finset.sum_congr rfl fun kk _ => dif_pos kk.isLt

theorem wSeq_chunk (r : Fin 2048) (t : Fin k0_t1_loop.trips) (j : Fin 512) :
    wSeq q k msk b r (512 * t.val + j.val) = weight q k msk b r (chunkRow t j) :=
  dif_pos (chunkRow t j).isLt

theorem wvSeq_chunk (r : Fin 2048) (d : Fin 64) (t : Fin k0_t1_loop.trips) (j : Fin 512) :
    wvSeq q k v msk b r d (512 * t.val + j.val) = weight q k msk b r (chunkRow t j) * v (ix3 b (chunkRow t j) d) :=
  dif_pos (chunkRow t j).isLt

include h0 h1 h2 h3 in
/-- After `n` trips the accumulator holds the weighted sum of the value rows over the first `512·n` key rows, and
    the row sums hold the sum of their weights. By induction on `n`: a trip adds its chunk's 512 terms. -/
theorem scratch_real (r : Fin 2048) (d : Fin 64) : ∀ n : ℕ, n ≤ k0_t1_loop.trips →
    (scratchAfter x0 (rowsAt x1) (rowsAt x2) (colsAt x3) (k0_pay1 (F := Ideal)) (k0_pay2 (F := Ideal)) n).1 (ix2 r d)
        = ((∑ i ∈ Finset.range (512 * n), wvSeq q k v msk b r d i : ℝ) : EReal)
    ∧ (scratchAfter x0 (rowsAt x1) (rowsAt x2) (colsAt x3) (k0_pay1 (F := Ideal)) (k0_pay2 (F := Ideal)) n).2 (ix2 r (0 : Fin 1))
        = ((∑ i ∈ Finset.range (512 * n), wSeq q k msk b r i : ℝ) : EReal) := by
  intro n
  induction n with
  | zero =>
    intro _
    refine ⟨(pay1_apply r d).trans ?_, (pay2_apply r).trans ?_⟩
    · simp
    · simp
  | succ n ih =>
    intro hn
    have h : n < k0_t1_loop.trips := hn
    obtain ⟨ih1, ih2⟩ := ih (Nat.le_of_lt h)
    have e512 : 512 * (n + 1) = 512 * n + 512 := by omega
    rw [scratchAfter_succ _ _ _ _ _ _ n h, e512, Finset.sum_range_add, Finset.sum_range_add, EReal.coe_add, EReal.coe_add]
    constructor
    · show k0_pay5 (F := Ideal) x0 (rowsAt x1 ⟨n, h⟩) (rowsAt x2 ⟨n, h⟩) (colsAt x3 ⟨n, h⟩) _ (ix2 r d) = _
      rw [pay5_apply, ih1]
      refine congrArg (_ + ·) ?_
      rw [Finset.sum_range, coe_sum]
      refine Finset.sum_congr rfl fun j _ => ?_
      rw [pay3_real q k msk b x0 x1 x3 h0 h1 h3, rowsAt_apply, h2, ← EReal.coe_mul]
      exact congrArg (fun z : ℝ => (z : EReal)) (wvSeq_chunk q k v msk b r d ⟨n, h⟩ j).symm
    · show k0_pay4 (F := Ideal) x0 (rowsAt x1 ⟨n, h⟩) (colsAt x3 ⟨n, h⟩) _ (ix2 r (0 : Fin 1)) = _
      rw [pay4_apply, ih2]
      refine congrArg (_ + ·) ?_
      rw [Finset.sum_range, coe_sum]
      refine Finset.sum_congr rfl fun j _ => ?_
      rw [pay3_real q k msk b x0 x1 x3 h0 h1 h3]
      exact congrArg (fun z : ℝ => (z : EReal)) (wSeq_chunk q k msk b r ⟨n, h⟩ j).symm

end Real

/-- One grid point's output block on real-valued blocks: batch b's attention output. -/
theorem block_value (q k v : SQ.Idx → ℝ) (msk : SM.Idx → BitVec 1) (b : Fin 16)
    (x0 x1 x2 : Vec Ideal S1x2048x64 .f32) (x3 : Vec Ideal S1x2048x2048 .i32)
    (h0 : ∀ (r : Fin 2048) (e : Fin 64), x0 (ix3 (0 : Fin 1) r e) = ((q (ix3 b r e) : ℝ) : EReal))
    (h1 : ∀ (r : Fin 2048) (e : Fin 64), x1 (ix3 (0 : Fin 1) r e) = ((k (ix3 b r e) : ℝ) : EReal))
    (h2 : ∀ (r : Fin 2048) (e : Fin 64), x2 (ix3 (0 : Fin 1) r e) = ((v (ix3 b r e) : ℝ) : EReal))
    (h3 : ∀ (r kk : Fin 2048), x3 (ix3 (0 : Fin 1) r kk) = (msk (ix3 b r kk)).setWidth 32)
    (r : Fin 2048) (d : Fin 64) :
    k0_pay6 (F := Ideal)
        (scratchAfter x0 (rowsAt x1) (rowsAt x2) (colsAt x3) (k0_pay1 (F := Ideal)) (k0_pay2 (F := Ideal)) k0_t1_loop.trips).1
        (scratchAfter x0 (rowsAt x1) (rowsAt x2) (colsAt x3) (k0_pay1 (F := Ideal)) (k0_pay2 (F := Ideal)) k0_t1_loop.trips).2
        (ix3 (0 : Fin 1) r d)
      = ((attn q k v msk b r d : ℝ) : EReal) := by
  obtain ⟨hacc, hsum⟩ := scratch_real q k v msk b x0 x1 x2 x3 h0 h1 h2 h3 r d k0_t1_loop.trips (Nat.le_refl _)
  have e2048 : 512 * k0_t1_loop.trips = 2048 := by rw [trips_eq]
  rw [e2048, sum_wvSeq] at hacc
  rw [e2048, sum_wSeq] at hsum
  rw [pay6_apply, hacc, hsum, Ideal.div_coe (total_ne_zero q k msk b r), ← EReal.coe_mul, attn, mul_one_div]

end Cert.KernelIdeal.PointValue

end
-- ==== Proof.KernelValue.lean ====
/-
  The kernel's result array, on finite arguments, is the attention output.

  Point `t` of the grid writes back, through its block (batch `t` of the result), the body's output block on
  the point's input blocks; those blocks are batch `t` of the argument arrays (the mask widened), so the
  written block is batch `t` of the attention output of the whole argument arrays; the 16 blocks tile the
  result, which therefore ends holding the attention output everywhere.
-/
import proofs.«146644_j6923487281202_2_alg».proof.Proof.Blocks
import proofs.«146644_j6923487281202_2_alg».proof.Proof.PointValue

noncomputable section

namespace Cert.KernelIdeal.AttnValue

open Cert.KernelIdeal Cert.KernelIdeal.Gen Cert.KernelIdeal.Blocks Cert.KernelIdeal.Body Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The attention output of the argument arrays of core `c`, read through their real parts. -/
def result (c : Dev nD) : Buf (Elt Ideal) ((c : Thread nD τ).loc main_v1) := fun i =>
  ((attn (fun j => (m ((c : Thread nD τ).loc main_arg0) j : EReal).toReal)
      (fun j => (m ((c : Thread nD τ).loc main_arg1) j : EReal).toReal)
      (fun j => (m ((c : Thread nD τ).loc main_arg2) j : EReal).toReal)
      (m ((c : Thread nD τ).loc main_arg3)) (i 0) (i 1) (i 2) : ℝ) : EReal)

/-- WHAT POINT `t` WRITES BACK, on finite arguments, is block `t` of the attention output. -/
theorem flushed_eq (c : Dev nD)
    (hq : ∀ j, (m ((c : Thread nD τ).loc main_arg0) j : EReal) = (((m ((c : Thread nD τ).loc main_arg0) j : EReal).toReal : ℝ) : EReal))
    (hk : ∀ j, (m ((c : Thread nD τ).loc main_arg1) j : EReal) = (((m ((c : Thread nD τ).loc main_arg1) j : EReal).toReal : ℝ) : EReal))
    (hv : ∀ j, (m ((c : Thread nD τ).loc main_arg2) j : EReal) = (((m ((c : Thread nD τ).loc main_arg2) j : EReal).toReal : ℝ) : EReal))
    (t : Fin cfg0.N) :
    (dats m 0 c).flushed 4 t = ((cfg0.win 4).blk t).view.read (Elt Ideal) (result m c) := by
  rw [Value.flushed4_A, Body.out_eq]
  funext y
  obtain ⟨u, r, d, rfl⟩ : ∃ (u : Fin 1) (r : Fin 2048) (d : Fin 64), y = ix3 u r d := ⟨y 0, y 1, y 2, eq_ix3 y⟩
  obtain rfl : u = 0 := Subsingleton.elim _ _
  show k0_pay6 (F := Ideal) _ _ (ix3 (0 : Fin 1) r d) = result m c (((cfg0.win 4).blk t).view.emb (ix3 (0 : Fin 1) r d))
  rw [oblk_emb]
  exact PointValue.block_value _ _ _ (m ((c : Thread nD τ).loc main_arg3)) (batch t)
    (iblk m c 0 t) (iblk m c 1 t) (iblk m c 2 t) (iblk m c 3 t)
    (fun r e => (qblk_apply m c t r e).trans (hq _)) (fun r e => (kblk_apply m c t r e).trans (hk _))
    (fun r e => (vblk_apply m c t r e).trans (hv _)) (fun r kk => mblk_apply m c t r kk) r d

/-- So the result array ends holding the attention output: the 16 written blocks tile it. -/
theorem final (c : Dev nD)
    (hq : ∀ j, (m ((c : Thread nD τ).loc main_arg0) j : EReal) = (((m ((c : Thread nD τ).loc main_arg0) j : EReal).toReal : ℝ) : EReal))
    (hk : ∀ j, (m ((c : Thread nD τ).loc main_arg1) j : EReal) = (((m ((c : Thread nD τ).loc main_arg1) j : EReal).toReal : ℝ) : EReal))
    (hv : ∀ j, (m ((c : Thread nD τ).loc main_arg2) j : EReal) = (((m ((c : Thread nD τ).loc main_arg2) j : EReal).toReal : ℝ) : EReal)) :
    (dats m 0 c).arrAt 4 cfg0.N = result m c :=
  (dats m 0 c).arrAt_eq_of_cover 4 (result m c) (fun t _ => flushed_eq m c hq hk hv t) cover

/-- The kernel's run, read: on finite arguments every weakly fair execution ends with the result array at the
    attention output and the arguments unchanged. -/
theorem run
    (hq : ∀ (c : Dev nD) j, (m ((c : Thread nD τ).loc main_arg0) j : EReal) = (((m ((c : Thread nD τ).loc main_arg0) j : EReal).toReal : ℝ) : EReal))
    (hk : ∀ (c : Dev nD) j, (m ((c : Thread nD τ).loc main_arg1) j : EReal) = (((m ((c : Thread nD τ).loc main_arg1) j : EReal).toReal : ℝ) : EReal))
    (hv : ∀ (c : Dev nD) j, (m ((c : Thread nD τ).loc main_arg2) j : EReal) = (((m ((c : Thread nD τ).loc main_arg2) j : EReal).toReal : ℝ) : EReal)) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hq c) (hk c) (hv c)), (h c).2⟩)
    (Value.run_blocks m ρ)

end Cert.KernelIdeal.AttnValue

end
-- ==== Proof.lean ====
/-
  Masked attention with an unnormalised exponential: the kernel against its reference.

  For each of 16 batches the kernel keeps the batch's 2048 query rows, 2048 key rows, 2048 value rows (64
  features each) and the 2048 by 2048 mask block on chip, and runs four trips over the key rows in chunks of
  512: a trip multiplies the queries, scaled by one eighth, into the chunk's keys, sets the masked scores to
  zero, exponentiates, adds the row sums of the exponentials into a column of row sums and the product of the
  exponentials with the chunk's values into an accumulator; at the end it divides the accumulator by the row
  sums. The reference divides the whole score matrix by the square root of 64, masks, exponentiates, divides
  each row by its sum, and multiplies by the values.

  Over the extended reals the two agree on finite inputs: every score is then a real number, the exponentials
  are positive reals, the row sum is a positive real, and
    · the scaling by 1/8 moves out of the dot product over the features (the square root of 64 is 8),
    · the four chunk sums of 512 terms are one sum of 2048 terms,
    · dividing each weight by the row sum before the product with the values is dividing the product after.
  Finiteness is used exactly there: moving a factor across a sum fails at infinities.

  The kernel's side reads the generated frame run: one trip's stores, the scratch arrays after the trips by
  induction, the output block at a grid point, and the 16 blocks tiling the result. The reference's side reads
  its generated run one operation at a time. The rounding to 16-bit floats on the way into the two matrix
  products is the identity at the exact instance, and the ideal pass rewrote nothing, so the kernel's
  idealization is its own text.
-/
import proofs.«146644_j6923487281202_2_alg».proof.Defs
import proofs.«146644_j6923487281202_2_alg».proof.Proof.Gen.Kernel
import proofs.«146644_j6923487281202_2_alg».proof.Proof.Gen.Kernel.Skeleton
import proofs.«146644_j6923487281202_2_alg».proof.Proof.Gen.Kernel.Loops
import proofs.«146644_j6923487281202_2_alg».proof.Proof.Gen.Kernel.Launch
import proofs.«146644_j6923487281202_2_alg».proof.Proof.Gen.Kernel.Points
import proofs.«146644_j6923487281202_2_alg».proof.Proof.Gen.Kernel.Frame
import proofs.«146644_j6923487281202_2_alg».proof.Proof.Gen.KernelIdeal
import proofs.«146644_j6923487281202_2_alg».proof.Proof.Gen.KernelIdeal.Skeleton
import proofs.«146644_j6923487281202_2_alg».proof.Proof.Gen.KernelIdeal.Loops
import proofs.«146644_j6923487281202_2_alg».proof.Proof.Gen.KernelIdeal.Launch
import proofs.«146644_j6923487281202_2_alg».proof.Proof.Gen.KernelIdeal.Points
import proofs.«146644_j6923487281202_2_alg».proof.Proof.Gen.KernelIdeal.Frame
import proofs.«146644_j6923487281202_2_alg».proof.Proof.Gen.ReferenceIdeal
import proofs.«146644_j6923487281202_2_alg».proof.Proof.Gen.KernelIdeal.Value
import proofs.«146644_j6923487281202_2_alg».proof.Proof.Gen.ReferenceIdeal.Run
import proofs.«146644_j6923487281202_2_alg».proof.Proof.Gen.ReferenceIdeal.Read
import proofs.«146644_j6923487281202_2_alg».proof.Proof.Gen.Pre_finite_inputs
import proofs.«146644_j6923487281202_2_alg».proof.Proof.RefValue
import proofs.«146644_j6923487281202_2_alg».proof.Proof.Finite
import proofs.«146644_j6923487281202_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On finite arguments that agree, the kernel's result array and the reference's both end at the attention
    output of the arguments: the kernel's by its blocks, the reference's operation by operation. -/
theorem algebraic : Cert.algebraic_KernelIdeal_ReferenceIdeal := by
  intro m ρ m' ρ' hpre hagree
  have fin := fun c => Cert.Attn.Finite.real_of_pre _ _ _ _ (hpre c)
  refine ⟨fun c => Cert.KernelIdeal.AttnValue.result m c,
    Cert.KernelIdeal.AttnValue.run m ρ (fun c => (fin c).1) (fun c => (fin c).2.1) (fun c => (fin c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2.1, (hagree c).2.2.2]
  obtain ⟨f0, f1, f2⟩ := fin c
  conv_lhs => rw [funext f0, funext f1, funext f2]
  exact Cert.Attn.Ref.reference_eq _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
